-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S32x32 : Shape := ⟨2, ![32, 32]⟩
abbrev S32 : Shape := ⟨1, ![32]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S2000000x32 .f32) (main_arg1 : FVec F S2000000x32 .f32) (main_arg2 : FVec F S32x32 .f32) (main_arg3 : FVec F S32 .f32) (main_arg4 : FVec F S32x32 .f32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  let main_v4 : FVec F S2000000x32 .f32 := Host.absf main_arg1
  let main_cst_0 : FVec F S_ .f32 := constant S_ .f32 0x7F800000#32
  let main_v5 : FVec F S2000000x32 .f32 := broadcastInDim S2000000x32 ![] bcast_S_S2000000x32 main_cst_0
  let main_v6 : IVec S2000000x32 1 := cmpf .olt main_v4 main_v5
  let main_c_1 : IVec S_ 1 := constantI S_ 1 1#1
  let main_v7 : IVec S_ 1 := (fun x v => Host.reduce IntOp.andi x v reducesTo_S2000000x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Kernel.lean ====
abbrev S2000000x32 : Shape := ⟨2, ![2000000, 32]⟩
abbrev S32x32 : Shape := ⟨2, ![32, 32]⟩
abbrev S32 : Shape := ⟨1, ![32]⟩
abbrev S1x32 : Shape := ⟨2, ![1, 32]⟩
abbrev S10000x32 : Shape := ⟨2, ![10000, 32]⟩
abbrev S_ : Shape := ⟨0, ![]⟩

abbrev nBuf : Space → Nat
  | .hbm => 28
  | .vmem => 7
  | .smem => 0
  | _ => 0

abbrev bufTy : (tb : Table) → Fin (tcTables nBuf tb) → BufTy
  | .hbm, ⟨0, _⟩ => ⟨S2000000x32, .f32⟩
  | .hbm, ⟨1, _⟩ => ⟨S2000000x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S1x32, .f32⟩
  | .hbm, ⟨6, _⟩ => ⟨S32x32, .f32⟩
  | .hbm, ⟨7, _⟩ => ⟨S_, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S1x32, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S_, .f32⟩
  | .hbm, ⟨17, _⟩ => ⟨S32, .f32⟩
  | .hbm, ⟨18, _⟩ => ⟨S1x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S_, .f32⟩
  | .hbm, ⟨23, _⟩ => ⟨S32, .f32⟩
  | .hbm, ⟨24, _⟩ => ⟨S1x32, .f32⟩
  | .hbm, ⟨25, _⟩ => ⟨S_, .f32⟩
  | .hbm, ⟨26, _⟩ => ⟨S1x32, .f32⟩
  | .hbm, ⟨27, _⟩ => ⟨S1x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x32, .f32⟩
  | .local _ .vmem, ⟨5, _⟩ => ⟨S1x32, .f32⟩
  | .local _ .vmem, ⟨6, _⟩ => ⟨S32x32, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S32_S1x32 : S32.ShapeCasts S1x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S32x32_S32x32 : S32x32.ShapeCasts S32x32
  reducesTo_S32x32_S32_d0 : S32x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S1x32 : S_.BroadcastsInDim S1x32 (![] : Fin 0 → Fin S1x32.rank)
  dot_S10000x32_S32x32_S10000x32_1_1_0_0_n_n_wf : DotDims.WF S10000x32 S32x32 S10000x32 [1] [1] [0] [0] [] []
  dot_S10000x32_S10000x32_S32x32_0_0_1_1_n_n_wf : DotDims.WF S10000x32 S10000x32 S32x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S2000000x32.size a
  hwx0_0 : ∀ i : grid0.Coords, EltTy.bits .f32 = 32 ∨ (Rect.block (s := S2000000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S2000000x32.size a
  hwx0_1 : ∀ i : grid0.Coords, EltTy.bits .f32 = 32 ∨ (Rect.block (s := S2000000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)

variable [Facts₀]

def dot_S10000x32_S32x32_S10000x32_1_1_0_0_n_n : DotDims S10000x32 S32x32 S10000x32 where
  lhsContracting := [1]
  rhsContracting := [1]
  lhsNonContracting := [0]
  rhsNonContracting := [0]
  lhsBatch := []
  rhsBatch := []
  wf := dot_S10000x32_S32x32_S10000x32_1_1_0_0_n_n_wf
def dot_S10000x32_S10000x32_S32x32_0_0_1_1_n_n : DotDims S10000x32 S10000x32 S32x32 where
  lhsContracting := [0]
  rhsContracting := [0]
  lhsNonContracting := [1]
  rhsNonContracting := [1]
  lhsBatch := []
  rhsBatch := []
  wf := dot_S10000x32_S10000x32_S32x32_0_0_1_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x32.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x32 : Shape := ⟨2, ![2000000, 32]⟩
abbrev S32x32 : Shape := ⟨2, ![32, 32]⟩
abbrev S32 : Shape := ⟨1, ![32]⟩
abbrev S1x32 : Shape := ⟨2, ![1, 32]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2000000x32, .f32⟩
  | .hbm, ⟨1, _⟩ => ⟨S2000000x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32x32, .f32⟩
  | .hbm, ⟨6, _⟩ => ⟨S2000000x32, .f32⟩
  | .hbm, ⟨7, _⟩ => ⟨S1x32, .f32⟩
  | .hbm, ⟨8, _⟩ => ⟨S2000000x32, .f32⟩
  | .hbm, ⟨9, _⟩ => ⟨S2000000x32, .f32⟩
  | .hbm, ⟨10, _⟩ => ⟨S_, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S32x32, .f32⟩
  | .hbm, ⟨17, _⟩ => ⟨S32x32, .f32⟩
  | .hbm, ⟨18, _⟩ => ⟨S32x32, .f32⟩
  | .hbm, ⟨19, _⟩ => ⟨S_, .f32⟩
  | .hbm, ⟨20, _⟩ => ⟨S32, .f32⟩
  | .hbm, ⟨21, _⟩ => ⟨S1x32, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S_, .f32⟩
  | .hbm, ⟨27, _⟩ => ⟨S32, .f32⟩
  | .hbm, ⟨28, _⟩ => ⟨S1x32, .f32⟩
  | .hbm, ⟨29, _⟩ => ⟨S_, .f32⟩
  | .hbm, ⟨30, _⟩ => ⟨S1x32, .f32⟩
  | .hbm, ⟨31, _⟩ => ⟨S1x32, .f32⟩
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  transposes_S32x32_S32x32_1_0 : S32x32.Transposes [1, 0] S32x32
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  reducesTo_S32x32_S32_d0 : S32x32.ReducesTo [0] S32
  h_S_ : 0 < S_.numel
  bcast_S_S32 : S_.BroadcastsInDim S32 (![] : Fin 0 → Fin S32.rank)
  bcast_S1x32_S32x32_0_1 : S1x32.BroadcastsInDim S32x32 (![0, 1] : Fin 2 → Fin S32x32.rank)
  bcast_S_S1x32 : S_.BroadcastsInDim S1x32 (![] : Fin 0 → Fin S1x32.rank)
  dot_S2000000x32_S32x32_S2000000x32_1_0_0_1_n_n_wf : DotDims.WF S2000000x32 S32x32 S2000000x32 [1] [0] [0] [1] [] []
  dot_S2000000x32_S2000000x32_S32x32_0_0_1_1_n_n_wf : DotDims.WF S2000000x32 S2000000x32 S32x32 [0] [0] [1] [1] [] []

variable [Facts₀]

def dot_S2000000x32_S32x32_S2000000x32_1_0_0_1_n_n : DotDims S2000000x32 S32x32 S2000000x32 where
  lhsContracting := [1]
  rhsContracting := [0]
  lhsNonContracting := [0]
  rhsNonContracting := [1]
  lhsBatch := []
  rhsBatch := []
  wf := dot_S2000000x32_S32x32_S2000000x32_1_0_0_1_n_n_wf
def dot_S2000000x32_S2000000x32_S32x32_0_0_1_1_n_n : DotDims S2000000x32 S2000000x32 S32x32 where
  lhsContracting := [0]
  rhsContracting := [0]
  lhsNonContracting := [1]
  rhsNonContracting := [1]
  lhsBatch := []
  rhsBatch := []
  wf := dot_S2000000x32_S2000000x32_S32x32_0_0_1_1_n_n_wf

class Facts : Prop extends Facts₀ where

variable [Facts]
-- ==== Proof.CaseValues.lean ====
/-
  What each case of the body leaves in the output block, as a value.

  The body has two cases.  At the first grid point it stores the zero block into the output block, reads it back, and
  stores that plus the point's contribution; at every later point it reads what the point before left and stores that
  plus the point's contribution.  Every load reads a whole buffer and every store covers the whole output block, so what
  a case leaves is the last store's value: the accumulating store's value over the block's previous contents — zero at
  the first point, the previous point's result afterwards.
-/
import proofs.«134287_j76639396430011_1_alg».proof.Proof.Gen.KernelIdeal.Frame
import Idealize.ShloMosaic.Lib.Pipeline.Value
import Idealize.ShloMosaic.Lib.Tactic

noncomputable section

namespace Cert.KernelIdeal.CaseValue

open Idealize.ShloMosaic Idealize.ShloMosaic.TcCoe Idealize.SL.Sem Idealize.ShloMosaic.Tactic
open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- A later point: over the block's previous contents `old`, the accumulating store's value. -/
theorem later_point (c : Dev nD) (i : grid0.Coords) (a1 : Memref sig .tc .vmem S10000x32 .f32) (h1 : a1.IsWhole)
    (a2 : Memref sig .tc .vmem S10000x32 .f32) (h2 : a2.IsWhole) (a3 : Memref sig .tc .vmem S32x32 .f32) (h3 : a3.IsWhole)
    (a4 : Memref sig .tc .vmem S1x32 .f32) (h4 : a4.IsWhole) (a5 : Memref sig .tc .vmem S32x32 .f32) (h5 : a5.IsWhole)
    (hc : ¬cond0_0 i) (x0 x1 : Vec F S10000x32 .f32) (x2 : Vec F S32x32 .f32) (x3 : Vec F S1x32 .f32) (old : Vec F S32x32 .f32) :
    out0_B_4 c i a1 h1 a2 h2 a3 h3 a4 h4 a5 h5 hc x0 x1 x2 x3 old = k0_pay2 x0 x1 x2 x3 old := by
  unfold out0_B_4
  rw [View.read_writes_eq_canon _ _ _ (cover0_B_4 c i a1 h1 a2 h2 a3 h3 a4 h4 a5 h5 hc x0 x1 x2 x3 old)]
  unfold kernelRun0_B
  dsimp only
  rw [View.canon_unit_zero origin]
  simp only [View.readAt_eq_ld, h1.read_unread, h2.read_unread, h3.read_unread, h4.read_unread, h5.read_unread,
    View.ld_unit_zero (S := S10000x32) origin, View.ld_unit_zero (S := S32x32) origin, View.ld_unit_zero (S := S1x32) origin]

/-- The first point: the accumulating store's value over the zero block it has just stored and read back. -/
theorem first_point (c : Dev nD) (i : grid0.Coords) (a1 : Memref sig .tc .vmem S10000x32 .f32) (h1 : a1.IsWhole)
    (a2 : Memref sig .tc .vmem S10000x32 .f32) (h2 : a2.IsWhole) (a3 : Memref sig .tc .vmem S32x32 .f32) (h3 : a3.IsWhole)
    (a4 : Memref sig .tc .vmem S1x32 .f32) (h4 : a4.IsWhole) (a5 : Memref sig .tc .vmem S32x32 .f32) (h5 : a5.IsWhole)
    (hc : cond0_0 i) (x0 x1 : Vec F S10000x32 .f32) (x2 : Vec F S32x32 .f32) (x3 : Vec F S1x32 .f32) :
    out0_A_4 c i a1 h1 a2 h2 a3 h3 a4 h4 a5 h5 hc x0 x1 x2 x3 = k0_pay2 x0 x1 x2 x3 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S32x32) origin, View.readCov_unit_zero (S := S32x32) _ origin]
  simp only [View.readAt_eq_ld, h1.read_unread, h2.read_unread, h3.read_unread, h4.read_unread,
    View.ld_unit_zero (S := S10000x32) origin, View.ld_unit_zero (S := S32x32) origin, View.ld_unit_zero (S := S1x32) origin]

end Cert.KernelIdeal.CaseValue

end
-- ==== Proof.BlockContribution.lean ====
/-
  One grid point's contribution, read entry by entry.

  At a grid point the body holds a block of 10000 rows of x and of feature, the whole weight matrix W (32 × 32) and the
  bias as a row b (1 × 32).  It forms, for each row y of the block and each output column o,
      weight1[y, o] = (∑ k, x[y, k] · W[o, k]) + b[0, o],
  then contracts the block's rows away against feature,
      contrib[i, o] = ∑ y, feature[y, i] · weight1[y, o],
  and adds contrib to what the output block held before.  Over the extended reals every operation is the exact one, both
  matrix products start from the zero matrix, and a product into zero is the plain sum of products; so the stored value
  at (i, o) is the old value there plus ∑ y, feature[y, i] · ((∑ k, x[y, k] · W[o, k]) + b[0, o]).  The block a first
  point stores before accumulating is zero everywhere.
-/
import proofs.«134287_j76639396430011_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The product of a block of rows with the transposed weights -/

/-- The left operand's index at output (y, o) and contraction index q: row y … -/
theorem rows_lhs_row (j : S10000x32.Idx) (q : dot_S10000x32_S32x32_S10000x32_1_1_0_0_n_n.contr.Idx) :
    (dot_S10000x32_S32x32_S10000x32_1_1_0_0_n_n.lhsIdx j q 0).val = (j 0).val := by
  unfold DotDims.lhsIdx
  rw [dif_neg (show ¬(0 : Fin S10000x32.rank) ∈ dot_S10000x32_S32x32_S10000x32_1_1_0_0_n_n.lhsBatch by decide),
    dif_pos (show (0 : Fin S10000x32.rank) ∈ dot_S10000x32_S32x32_S10000x32_1_1_0_0_n_n.lhsNonContracting by decide)]
  rfl
/-- … column q; -/
theorem rows_lhs_col (j : S10000x32.Idx) (q : dot_S10000x32_S32x32_S10000x32_1_1_0_0_n_n.contr.Idx) :
    (dot_S10000x32_S32x32_S10000x32_1_1_0_0_n_n.lhsIdx j q 1).val = (q ⟨0, by decide⟩).val :=
  dot_S10000x32_S32x32_S10000x32_1_1_0_0_n_n.lhsIdx_val_of_single rfl j q
/-- the right operand's: row o (the output's column) … -/
theorem rows_rhs_row (j : S10000x32.Idx) (q : dot_S10000x32_S32x32_S10000x32_1_1_0_0_n_n.contr.Idx) :
    (dot_S10000x32_S32x32_S10000x32_1_1_0_0_n_n.rhsIdx j q 0).val = (j 1).val := by
  unfold DotDims.rhsIdx
  rw [dif_neg (show ¬(0 : Fin S32x32.rank) ∈ dot_S10000x32_S32x32_S10000x32_1_1_0_0_n_n.rhsBatch by decide),
    dif_pos (show (0 : Fin S32x32.rank) ∈ dot_S10000x32_S32x32_S10000x32_1_1_0_0_n_n.rhsNonContracting by decide)]
  rfl
/-- … column q. -/
theorem rows_rhs_col (j : S10000x32.Idx) (q : dot_S10000x32_S32x32_S10000x32_1_1_0_0_n_n.contr.Idx) :
    (dot_S10000x32_S32x32_S10000x32_1_1_0_0_n_n.rhsIdx j q 1).val = (q ⟨0, by decide⟩).val :=
  dot_S10000x32_S32x32_S10000x32_1_1_0_0_n_n.rhsIdx_val_of_single rfl j q

/-- Rows of x times the weights, both contracted along their second axis: entry (y, o) is ∑ k, x[y, k] · W[o, k]. -/
theorem rows_times_weights (xb : FVec Ideal S10000x32 .f32) (W : FVec Ideal S32x32 .f32) (y : Fin 10000) (o : Fin 32) :
    matmul dot_S10000x32_S32x32_S10000x32_1_1_0_0_n_n none xb W (constant (F := Ideal) S10000x32 .f32 0x00000000#32) (ix2 y o)
      = ∑ k : Fin 32, xb (ix2 y k) * W (ix2 o k) := by
  simp only [matmul]
  rw [Ideal.matmul_constant_zero_apply, ← Equiv.sum_comp (contrEquiv1 dot_S10000x32_S32x32_S10000x32_1_1_0_0_n_n 32 rfl rfl).symm]
  refine Finset.sum_congr rfl fun k _ => ?_
  have hk := contrEquiv1_symm_val dot_S10000x32_S32x32_S10000x32_1_1_0_0_n_n 32 rfl rfl k
  have el : dot_S10000x32_S32x32_S10000x32_1_1_0_0_n_n.lhsIdx (ix2 y o) ((contrEquiv1 dot_S10000x32_S32x32_S10000x32_1_1_0_0_n_n 32 rfl rfl).symm k) = ix2 y k :=
    funext fun a => Fin.ext (by
      match a with
      | ⟨0, _⟩ => exact rows_lhs_row _ _
      | ⟨1, _⟩ => exact (rows_lhs_col _ _).trans hk)
  have er : dot_S10000x32_S32x32_S10000x32_1_1_0_0_n_n.rhsIdx (ix2 y o) ((contrEquiv1 dot_S10000x32_S32x32_S10000x32_1_1_0_0_n_n 32 rfl rfl).symm k) = ix2 o k :=
    funext fun a => Fin.ext (by
      match a with
      | ⟨0, _⟩ => exact rows_rhs_row _ _
      | ⟨1, _⟩ => exact (rows_rhs_col _ _).trans hk)
  rw [el, er]

/-! ## The bias row spread over the block's rows -/

/-- The bias row broadcast to every row of the block reads, at (y, o), the row's entry o. -/
theorem bias_row_spread (b : FVec Ideal S1x32 .f32) (y : Fin 10000) (o : Fin 32) :
    broadcastTo S10000x32 b broadcasts_S1x32_S10000x32 (ix2 y o) = b (ix2 (0 : Fin 1) o) :=
  broadcastTo_1b_ab_apply b broadcasts_S1x32_S10000x32 y o

/-! ## The contraction over the block's rows -/

/-- The left operand's index at output (i, o) and contraction index q: row q … -/
theorem contracted_lhs_row (j : S32x32.Idx) (q : dot_S10000x32_S10000x32_S32x32_0_0_1_1_n_n.contr.Idx) :
    (dot_S10000x32_S10000x32_S32x32_0_0_1_1_n_n.lhsIdx j q 0).val = (q ⟨0, by decide⟩).val :=
  dot_S10000x32_S10000x32_S32x32_0_0_1_1_n_n.lhsIdx_val_of_single rfl j q
/-- … column i; -/
theorem contracted_lhs_col (j : S32x32.Idx) (q : dot_S10000x32_S10000x32_S32x32_0_0_1_1_n_n.contr.Idx) :
    (dot_S10000x32_S10000x32_S32x32_0_0_1_1_n_n.lhsIdx j q 1).val = (j 0).val := by
  unfold DotDims.lhsIdx
  rw [dif_neg (show ¬(1 : Fin S10000x32.rank) ∈ dot_S10000x32_S10000x32_S32x32_0_0_1_1_n_n.lhsBatch by decide),
    dif_pos (show (1 : Fin S10000x32.rank) ∈ dot_S10000x32_S10000x32_S32x32_0_0_1_1_n_n.lhsNonContracting by decide)]
  rfl
/-- the right operand's: row q … -/
theorem contracted_rhs_row (j : S32x32.Idx) (q : dot_S10000x32_S10000x32_S32x32_0_0_1_1_n_n.contr.Idx) :
    (dot_S10000x32_S10000x32_S32x32_0_0_1_1_n_n.rhsIdx j q 0).val = (q ⟨0, by decide⟩).val :=
  dot_S10000x32_S10000x32_S32x32_0_0_1_1_n_n.rhsIdx_val_of_single rfl j q
/-- … column o. -/
theorem contracted_rhs_col (j : S32x32.Idx) (q : dot_S10000x32_S10000x32_S32x32_0_0_1_1_n_n.contr.Idx) :
    (dot_S10000x32_S10000x32_S32x32_0_0_1_1_n_n.rhsIdx j q 1).val = (j 1).val := by
  unfold DotDims.rhsIdx
  rw [dif_neg (show ¬(1 : Fin S10000x32.rank) ∈ dot_S10000x32_S10000x32_S32x32_0_0_1_1_n_n.rhsBatch by decide),
    dif_pos (show (1 : Fin S10000x32.rank) ∈ dot_S10000x32_S10000x32_S32x32_0_0_1_1_n_n.rhsNonContracting by decide)]
  rfl

/-- Feature rows against any 10000 × 32 matrix, both contracted along the row axis: entry (i, o) is
    ∑ y, feature[y, i] · w[y, o]. -/
theorem rows_contracted (fb w : FVec Ideal S10000x32 .f32) (i o : Fin 32) :
    matmul dot_S10000x32_S10000x32_S32x32_0_0_1_1_n_n none fb w (constant (F := Ideal) S32x32 .f32 0x00000000#32) (ix2 i o)
      = ∑ y : Fin 10000, fb (ix2 y i) * w (ix2 y o) := by
  simp only [matmul]
  rw [Ideal.matmul_constant_zero_apply, ← Equiv.sum_comp (contrEquiv1 dot_S10000x32_S10000x32_S32x32_0_0_1_1_n_n 10000 rfl rfl).symm]
  refine Finset.sum_congr rfl fun y _ => ?_
  have hy := contrEquiv1_symm_val dot_S10000x32_S10000x32_S32x32_0_0_1_1_n_n 10000 rfl rfl y
  have el : dot_S10000x32_S10000x32_S32x32_0_0_1_1_n_n.lhsIdx (ix2 i o) ((contrEquiv1 dot_S10000x32_S10000x32_S32x32_0_0_1_1_n_n 10000 rfl rfl).symm y) = ix2 y i :=
    funext fun a => Fin.ext (by
      match a with
      | ⟨0, _⟩ => exact (contracted_lhs_row _ _).trans hy
      | ⟨1, _⟩ => exact contracted_lhs_col _ _)
  have er : dot_S10000x32_S10000x32_S32x32_0_0_1_1_n_n.rhsIdx (ix2 i o) ((contrEquiv1 dot_S10000x32_S10000x32_S32x32_0_0_1_1_n_n 10000 rfl rfl).symm y) = ix2 y o :=
    funext fun a => Fin.ext (by
      match a with
      | ⟨0, _⟩ => exact (contracted_rhs_row _ _).trans hy
      | ⟨1, _⟩ => exact contracted_rhs_col _ _)
  rw [el, er]

/-! ## What a point stores -/

/-- One point's contribution at (i, o), from its blocks of x and feature, the weights and the bias row. -/
def contribution (xb fb : FVec Ideal S10000x32 .f32) (W : FVec Ideal S32x32 .f32) (b : FVec Ideal S1x32 .f32)
    (i o : Fin 32) : EReal :=
  ∑ y : Fin 10000, fb (ix2 y i) * ((∑ k : Fin 32, xb (ix2 y k) * W (ix2 o k)) + b (ix2 (0 : Fin 1) o))

/-- The accumulating store's value at (i, o): what the output block held there plus the point's contribution. -/
theorem stored_apply (xb fb : Vec Ideal S10000x32 .f32) (W : Vec Ideal S32x32 .f32) (b : Vec Ideal S1x32 .f32)
    (old : Vec Ideal S32x32 .f32) (i o : Fin 32) :
    k0_pay2 (F := Ideal) xb fb W b old (ix2 i o) = old (ix2 i o) + contribution xb fb W b i o := by
  unfold k0_pay2 contribution
  simp only [shapeCast_self]
  refine congrArg (old (ix2 i o) + ·) ?_
  refine (rows_contracted fb _ i o).trans ?_
  refine Finset.sum_congr rfl fun y _ => congrArg (fb (ix2 y i) * ·) ?_
  exact congrArg₂ (· + ·) (rows_times_weights xb W y o) (bias_row_spread b y o)

/-- The block a first point stores before accumulating is zero at every entry. -/
theorem reset_apply (j : S32x32.Idx) : k0_pay1 (F := Ideal) j = 0 := by
  unfold k0_pay1
  exact Ideal.ofBits_zero_f32

end Cert.KernelIdeal.BlockValue

end
-- ==== Proof.Blocks.lean ====
/-
  What the body finds in its input blocks, in terms of the argument arrays.

  At grid point t the blocks of x and of feature are rows t·10000, …, t·10000 + 9999 of the arrays: entry (y, k) of the
  block is entry (t·10000 + y, k) of the array.  The weights' one block is the whole 32 × 32 array.  The bias reaches the
  kernel as a 1 × 32 row, the reshape of the 32-vector the program is given: entry (0, o) of the row is entry o of the
  vector.  No operation before the kernel writes an argument array, so each is found as the program was given it.
-/
import proofs.«134287_j76639396430011_1_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.BlockRead

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## Where each window's block sits, at every grid point -/

/-- Block t of x is row block t, column block 0. -/
theorem x_index : ∀ t : Fin cfg0.N, win0_0.index t 0 = t.val ∧ win0_0.index t 1 = 0 :=
  (by decide +kernel : ∀ t : Fin grid0.N, win0_0.index t 0 = t.val ∧ win0_0.index t 1 = 0)
/-- Block t of feature likewise. -/
theorem feature_index : ∀ t : Fin cfg0.N, win0_1.index t 0 = t.val ∧ win0_1.index t 1 = 0 :=
  (by decide +kernel : ∀ t : Fin grid0.N, win0_1.index t 0 = t.val ∧ win0_1.index t 1 = 0)
/-- The weights' block never moves. -/
theorem weights_index : ∀ t : Fin cfg0.N, win0_2.index t 0 = 0 ∧ win0_2.index t 1 = 0 :=
  (by decide +kernel : ∀ t : Fin grid0.N, win0_2.index t 0 = 0 ∧ win0_2.index t 1 = 0)
/-- Nor does the bias row's. -/
theorem bias_index : ∀ t : Fin cfg0.N, win0_3.index t 0 = 0 ∧ win0_3.index t 1 = 0 :=
  (by decide +kernel : ∀ t : Fin grid0.N, win0_3.index t 0 = 0 ∧ win0_3.index t 1 = 0)

/-! ## The blocks -/

/-- Entry (y, k) of x's block at point t is entry (t·10000 + y, k) of x. -/
theorem x_block (c : Dev nD) (t : Fin cfg0.N) (y : Fin 10000) (k : Fin 32) (h : t.val * 10000 + y.val < 2000000) :
    (iblk m c 0 t : Vec F S10000x32 .f32) (ix2 y k)
      = m ((c : Thread nD τ).loc main_arg0) (ix2 (⟨t.val * 10000 + y.val, h⟩ : Fin 2000000) k) := by
  unfold iblk
  rw [View.read_apply]
  show V m c main_arg0 _ = _
  rw [V_main_arg0]
  refine congrArg _ (funext fun a => Fin.ext ?_)
  match a with
  | ⟨0, _⟩ => show win0_0.index t 0 * 10000 + 1 * y.val = t.val * 10000 + y.val; rw [(x_index t).1]; omega
  | ⟨1, _⟩ => show win0_0.index t 1 * 32 + 1 * k.val = k.val; rw [(x_index t).2]; omega

/-- Entry (y, k) of feature's block at point t is entry (t·10000 + y, k) of feature. -/
theorem feature_block (c : Dev nD) (t : Fin cfg0.N) (y : Fin 10000) (k : Fin 32) (h : t.val * 10000 + y.val < 2000000) :
    (iblk m c 1 t : Vec F S10000x32 .f32) (ix2 y k)
      = m ((c : Thread nD τ).loc main_arg1) (ix2 (⟨t.val * 10000 + y.val, h⟩ : Fin 2000000) k) := by
  unfold iblk
  rw [View.read_apply]
  show V m c main_arg1 _ = _
  rw [V_main_arg1]
  refine congrArg _ (funext fun a => Fin.ext ?_)
  match a with
  | ⟨0, _⟩ => show win0_1.index t 0 * 10000 + 1 * y.val = t.val * 10000 + y.val; rw [(feature_index t).1]; omega
  | ⟨1, _⟩ => show win0_1.index t 1 * 32 + 1 * k.val = k.val; rw [(feature_index t).2]; omega

/-- The weights' block at any point, at (o, k), is the weights at (o, k). -/
theorem weights_block (c : Dev nD) (t : Fin cfg0.N) (o k : Fin 32) :
    (iblk m c 2 t : Vec F S32x32 .f32) (ix2 o k) = m ((c : Thread nD τ).loc main_arg2) (ix2 o k) := by
  unfold iblk
  rw [View.read_apply]
  show V m c main_arg2 _ = _
  rw [V_main_arg2]
  refine congrArg _ (funext fun a => Fin.ext ?_)
  match a with
  | ⟨0, _⟩ => show win0_2.index t 0 * 32 + 1 * o.val = o.val; rw [(weights_index t).1]; omega
  | ⟨1, _⟩ => show win0_2.index t 1 * 32 + 1 * k.val = k.val; rw [(weights_index t).2]; omega

/-- The array the bias row's window stages is the reshape of the bias vector, the one operation before the kernel. -/
theorem bias_row_array (c : Dev nD) :
    (V m c main_v0 : S1x32.Idx → Elt F .f32) = shapeCast S1x32 (m ((c : Thread nD τ).loc main_arg3)) shapeCasts_S32_S1x32 := by
  show StableHlo.after hostOps0 (fun b => m (c, b)) (Proc.devRef .tc main_v0) = _
  after_results
  rfl

/-- Entry (0, o) of the bias row's block at any point is entry o of the bias vector. -/
theorem bias_block (c : Dev nD) (t : Fin cfg0.N) (o : Fin 32) :
    (iblk m c 3 t : Vec F S1x32 .f32) (ix2 (0 : Fin 1) o) = m ((c : Thread nD τ).loc main_arg3) (ix1 o) := by
  unfold iblk
  rw [View.read_apply]
  show V m c main_v0 _ = _
  rw [bias_row_array]
  refine Eq.trans (congrArg _ (funext fun a => Fin.ext ?_)) (shapeCast_a_1a_apply _ shapeCasts_S32_S1x32 (0 : Fin 1) o)
  match a with
  | ⟨0, _⟩ => show win0_3.index t 0 * 1 + 1 * 0 = 0; rw [(bias_index t).1]
  | ⟨1, _⟩ => show win0_3.index t 1 * 32 + 1 * o.val = o.val; rw [(bias_index t).2]; omega

end Cert.KernelIdeal.BlockRead

end
-- ==== Proof.LibBlockSum.lean ====
/-
  Sums over a range of T · B consecutive indices taken block by block, and running totals.

  The indices 0, …, T·B − 1 split into T consecutive blocks of B: index t·B + y is entry y of block t.  A sum over all of
  them is therefore the sum over the blocks of each block's sum.  A running total that starts from z plus the first
  term and adds one more term at each step is, after step t, z plus the sum of terms 0, …, t.  Together: a total
  accumulated block by block is z plus the sum over all T·B indices.
-/
import Mathlib

open scoped BigOperators

namespace Cert.Lib.BatchNorm

/-! ## The block decomposition of a range of T · B indices -/

/-- Entry y of block t has flat index t·B + y, below T·B. -/
theorem block_index_lt {T B : ℕ} (t : Fin T) (y : Fin B) : t.val * B + y.val < T * B :=
  calc t.val * B + y.val < t.val * B + B := Nat.add_lt_add_left y.isLt _
    _ = (t.val + 1) * B := by ring
    _ ≤ T * B := Nat.mul_le_mul_right _ t.isLt

/-- A sum over T·B indices is the sum over the T blocks of the sum over each block's B entries. -/
theorem sum_fin_mul {M : Type*} [AddCommMonoid M] (T B : ℕ) (f : Fin (T * B) → M) :
    ∑ i : Fin (T * B), f i = ∑ t : Fin T, ∑ y : Fin B, f ⟨t.val * B + y.val, block_index_lt t y⟩ := by
  rw [← Equiv.sum_comp (finProdFinEquiv (m := T) (n := B)) f, Fintype.sum_prod_type]
  refine Finset.sum_congr rfl fun t _ => Finset.sum_congr rfl fun y _ => ?_
  congr 1
  refine Fin.ext ?_
  simp only [finProdFinEquiv_apply_val]
  ring

/-- The same for a function of the flat index as a natural number, with the blocks and entries counted by ranges. -/
theorem sum_fin_mul_nat {M : Type*} [AddCommMonoid M] (T B : ℕ) (F : ℕ → M) :
    ∑ i : Fin (T * B), F i.val = ∑ t ∈ Finset.range T, ∑ y ∈ Finset.range B, F (t * B + y) := by
  rw [sum_fin_mul T B fun i => F i.val, Finset.sum_range]
  refine Finset.sum_congr rfl fun t _ => ?_
  rw [Finset.sum_range]

/-! ## Running totals -/

/-- A running total a, with a 0 = z + g 0 and a (t + 1) = a t + g (t + 1), is at step t the start z plus the sum of
    g 0, …, g t. -/
theorem running_total {M : Type*} [AddCommMonoid M] (a g : ℕ → M) (z : M) (h0 : a 0 = z + g 0)
    (hs : ∀ t, a (t + 1) = a t + g (t + 1)) (t : ℕ) : a t = z + ∑ s ∈ Finset.range (t + 1), g s := by
  induction t with
  | zero => rw [h0, Finset.sum_range_one]
  | succ t ih => rw [hs t, ih, Finset.sum_range_succ _ (t + 1), add_assoc]

/-- The same when the recurrence is known only up to a last step T − 1: for every t below T. -/
theorem running_total_below {M : Type*} [AddCommMonoid M] (T : ℕ) (a g : ℕ → M) (z : M) (h0 : a 0 = z + g 0)
    (hs : ∀ t, t + 1 < T → a (t + 1) = a t + g (t + 1)) (t : ℕ) (ht : t < T) :
    a t = z + ∑ s ∈ Finset.range (t + 1), g s := by
  induction t with
  | zero => rw [h0, Finset.sum_range_one]
  | succ t ih => rw [hs t ht, ih (Nat.lt_of_succ_lt ht), Finset.sum_range_succ _ (t + 1), add_assoc]

/-- A sum of g 0, …, g (T − 1) counted by a range is the sum over the T indices below T. -/
theorem sum_range_eq_sum_fin {M : Type*} [AddCommMonoid M] (T : ℕ) (g : ℕ → M) :
    ∑ s ∈ Finset.range T, g s = ∑ t : Fin T, g t.val :=
  Finset.sum_range g

/-- A total accumulated block by block — it starts from z plus block 0's sum and adds block t + 1's sum at step
    t + 1 — is, after the last of T ≥ 1 blocks of B entries, z plus the sum over all T·B flat indices. -/
theorem running_total_blocks {M : Type*} [AddCommMonoid M] (T B : ℕ) (hT : 0 < T) (a : ℕ → M) (F : ℕ → M) (z : M)
    (h0 : a 0 = z + ∑ y ∈ Finset.range B, F (0 * B + y))
    (hs : ∀ t, t + 1 < T → a (t + 1) = a t + ∑ y ∈ Finset.range B, F ((t + 1) * B + y)) :
    a (T - 1) = z + ∑ i : Fin (T * B), F i.val := by
  rw [running_total_below T a (fun t => ∑ y ∈ Finset.range B, F (t * B + y)) z h0 hs (T - 1) (by omega),
    sum_fin_mul_nat, Nat.sub_add_cancel hT]

/-! ## Running totals indexed by the steps 0, …, T − 1 themselves -/

/-- A running total a over the T steps, with a 0 = z + g 0 and a (t + 1) = a t + g (t + 1), is at the last step the
    start z plus the sum of all T terms. -/
theorem running_total_fin_last {M : Type*} [AddCommMonoid M] {T : ℕ} (hT : 0 < T) (a g : Fin T → M) (z : M)
    (h0 : a ⟨0, hT⟩ = z + g ⟨0, hT⟩)
    (hs : ∀ (t : ℕ) (h : t + 1 < T), a ⟨t + 1, h⟩ = a ⟨t, Nat.lt_of_succ_lt h⟩ + g ⟨t + 1, h⟩) :
    a ⟨T - 1, Nat.sub_lt hT Nat.one_pos⟩ = z + ∑ s : Fin T, g s := by
  have key := running_total_below T (fun t => if h : t < T then a ⟨t, h⟩ else 0)
    (fun t => if h : t < T then g ⟨t, h⟩ else 0) z
    (by simp only [dif_pos hT]; exact h0)
    (fun t h => by simp only [dif_pos h, dif_pos (Nat.lt_of_succ_lt h)]; exact hs t h)
    (T - 1) (Nat.sub_lt hT Nat.one_pos)
  simp only [dif_pos (Nat.sub_lt hT Nat.one_pos), Nat.sub_add_cancel hT] at key
  rw [key, Finset.sum_range]
  congr 1
  exact Finset.sum_congr rfl fun s _ => by rw [dif_pos s.isLt]

/-- A total accumulated block by block over T ≥ 1 blocks of B entries — it starts from z plus block 0's sum and
    adds block t + 1's sum at step t + 1 — is at the last step z plus the sum over all T·B flat indices. -/
theorem running_total_blocks_fin {M : Type*} [AddCommMonoid M] (T B : ℕ) (hT : 0 < T) (a : Fin T → M)
    (f : Fin (T * B) → M) (z : M)
    (h0 : a ⟨0, hT⟩ = z + ∑ y : Fin B, f ⟨(⟨0, hT⟩ : Fin T).val * B + y.val, block_index_lt ⟨0, hT⟩ y⟩)
    (hs : ∀ (t : ℕ) (h : t + 1 < T), a ⟨t + 1, h⟩ = a ⟨t, Nat.lt_of_succ_lt h⟩
        + ∑ y : Fin B, f ⟨(⟨t + 1, h⟩ : Fin T).val * B + y.val, block_index_lt ⟨t + 1, h⟩ y⟩) :
    a ⟨T - 1, Nat.sub_lt hT Nat.one_pos⟩ = z + ∑ i : Fin (T * B), f i := by
  rw [sum_fin_mul]
  exact running_total_fin_last hT a (fun t => ∑ y : Fin B, f ⟨t.val * B + y.val, block_index_lt t y⟩) z h0 hs

/-! ## The instance 50000 = 10 · 5000 -/

/-- A sum over 50000 indices is the sum over 10 blocks of the sum over each block's 5000 entries. -/
theorem sum_fin_50000 {M : Type*} [AddCommMonoid M] (f : Fin 50000 → M) :
    ∑ i : Fin 50000, f i
      = ∑ t : Fin 10, ∑ y : Fin 5000, f ⟨t.val * 5000 + y.val, by have := t.isLt; have := y.isLt; omega⟩ :=
  sum_fin_mul 10 5000 f

/-- The same for a function of the flat index as a natural number. -/
theorem sum_fin_50000_nat {M : Type*} [AddCommMonoid M] (F : ℕ → M) :
    ∑ i : Fin 50000, F i.val = ∑ t ∈ Finset.range 10, ∑ y ∈ Finset.range 5000, F (t * 5000 + y) :=
  sum_fin_mul_nat 10 5000 F

/-- A total accumulated over 10 blocks of 5000 is z plus the sum over all 50000 flat indices. -/
theorem running_total_50000 {M : Type*} [AddCommMonoid M] (a : ℕ → M) (F : ℕ → M) (z : M)
    (h0 : a 0 = z + ∑ y ∈ Finset.range 5000, F (0 * 5000 + y))
    (hs : ∀ t, t + 1 < 10 → a (t + 1) = a t + ∑ y ∈ Finset.range 5000, F ((t + 1) * 5000 + y)) :
    a 9 = z + ∑ i : Fin 50000, F i.val :=
  running_total_blocks 10 5000 (by norm_num) a F z h0 hs

/-- A total accumulated over the 10 steps, block t being the 5000 entries from 5000 t on, is at step 9 the start z
    plus the sum over all 50000 entries. -/
theorem running_total_50000_fin {M : Type*} [AddCommMonoid M] (a : Fin 10 → M) (f : Fin 50000 → M) (z : M)
    (h0 : a 0 = z + ∑ y : Fin 5000, f ⟨0 * 5000 + y.val, by have := y.isLt; omega⟩)
    (hs : ∀ (t : ℕ) (h : t + 1 < 10), a ⟨t + 1, h⟩ = a ⟨t, Nat.lt_of_succ_lt h⟩
        + ∑ y : Fin 5000, f ⟨(t + 1) * 5000 + y.val, by have := y.isLt; omega⟩) :
    a 9 = z + ∑ i : Fin 50000, f i :=
  running_total_blocks_fin 10 5000 (by norm_num) a f z h0 hs

end Cert.Lib.BatchNorm
-- ==== Proof.Contraction.lean ====
/-
  The contraction both programs compute, as one function of the argument arrays, and its block-by-block form.

  With x and feature of 2000000 rows and 32 columns, weights W (32 × 32) and bias b (32), put
      term i o n = feature[n, i] · ((∑ k, x[n, k] · W[o, k]) + b[o])         (row n's share of entry (i, o))
      total i o  = ∑ n, term i o n                                            (n over all 2000000 rows).
  The 2000000 rows are 200 consecutive blocks of 10000: row t·10000 + y is row y of block t.  A running total that starts
  from zero plus block 0's sum and adds block t + 1's sum at step t + 1 is, after the last block, zero plus the sum over
  all rows, which is the total: addition of extended reals is commutative and associative, so the regrouping needs no
  finiteness of the entries.
-/
import proofs.«134287_j76639396430011_1_alg».proof.Proof.LibBlockSum
import Idealize.ShloMosaic.Lib.ValueIdx
import Idealize.ShloMosaic.PureOps.Ideal

noncomputable section

open scoped BigOperators

namespace Cert.Contraction

open Idealize.ShloMosaic Idealize.ShloMosaic.ValueIdx

/-- Row t·10000 + y lies among the 2000000 rows. -/
theorem row_lt (t : Fin 200) (y : Fin 10000) : t.val * 10000 + y.val < 2000000 := by
  have := t.isLt; have := y.isLt; omega

/-- Row y of block t. -/
abbrev blockRow (t : Fin 200) (y : Fin 10000) : Fin 2000000 := ⟨t.val * 10000 + y.val, row_lt t y⟩

/-- Row n's share of entry (i, o). -/
def term (x feat : FVec Ideal ⟨2, ![2000000, 32]⟩ .f32) (W : FVec Ideal ⟨2, ![32, 32]⟩ .f32) (b : FVec Ideal ⟨1, ![32]⟩ .f32)
    (i o : Fin 32) (n : Fin 2000000) : EReal :=
  feat (ix2 n i) * ((∑ k : Fin 32, x (ix2 n k) * W (ix2 o k)) + b (ix1 o))

/-- Entry (i, o) of the contraction: the sum of every row's share. -/
def total (x feat : FVec Ideal ⟨2, ![2000000, 32]⟩ .f32) (W : FVec Ideal ⟨2, ![32, 32]⟩ .f32) (b : FVec Ideal ⟨1, ![32]⟩ .f32)
    (i o : Fin 32) : EReal :=
  ∑ n : Fin 2000000, term x feat W b i o n

/-- The contraction as a 32 × 32 array. -/
def totalArray (x feat : FVec Ideal ⟨2, ![2000000, 32]⟩ .f32) (W : FVec Ideal ⟨2, ![32, 32]⟩ .f32) (b : FVec Ideal ⟨1, ![32]⟩ .f32) :
    FVec Ideal ⟨2, ![32, 32]⟩ .f32 :=
  fun j => total x feat W b (j 0) (j 1)

theorem totalArray_apply (x feat : FVec Ideal ⟨2, ![2000000, 32]⟩ .f32) (W : FVec Ideal ⟨2, ![32, 32]⟩ .f32)
    (b : FVec Ideal ⟨1, ![32]⟩ .f32) (i o : Fin 32) : totalArray x feat W b (ix2 i o) = total x feat W b i o := rfl

/-- Block t's share of entry (i, o): the sum over the block's 10000 rows. -/
def blockShare (x feat : FVec Ideal ⟨2, ![2000000, 32]⟩ .f32) (W : FVec Ideal ⟨2, ![32, 32]⟩ .f32) (b : FVec Ideal ⟨1, ![32]⟩ .f32)
    (i o : Fin 32) (t : Fin 200) : EReal :=
  ∑ y : Fin 10000, term x feat W b i o (blockRow t y)

/-- A total that starts from zero plus block 0's share and adds block t + 1's share at step t + 1 is, at the last of the
    200 steps, the contraction's entry. -/
theorem accumulated_eq_total (x feat : FVec Ideal ⟨2, ![2000000, 32]⟩ .f32) (W : FVec Ideal ⟨2, ![32, 32]⟩ .f32)
    (b : FVec Ideal ⟨1, ![32]⟩ .f32) (i o : Fin 32) (a : Fin 200 → EReal)
    (h0 : a ⟨0, by norm_num⟩ = 0 + blockShare x feat W b i o ⟨0, by norm_num⟩)
    (hs : ∀ (t : ℕ) (h : t + 1 < 200), a ⟨t + 1, h⟩ = a ⟨t, Nat.lt_of_succ_lt h⟩ + blockShare x feat W b i o ⟨t + 1, h⟩) :
    a ⟨199, by norm_num⟩ = total x feat W b i o := by
  have key := Cert.Lib.BatchNorm.running_total_blocks_fin 200 10000 (by norm_num) a
    (fun n : Fin (200 * 10000) => term x feat W b i o ⟨n.val, n.isLt⟩) 0 h0 hs
  rw [zero_add] at key
  exact key

end Cert.Contraction

end
-- ==== Proof.Accumulated.lean ====
/-
  The output block after the last grid point holds the contraction.

  At point t the body's contribution at (i, o) is ∑ y, feature-block[y, i] · ((∑ k, x-block[y, k] · W[o, k]) + b[0, o]); the
  blocks are rows t·10000 + y of the arrays, so this is block t's share of the contraction's entry (i, o).  The first
  point leaves zero plus block 0's share; every later point leaves what the point before left plus its own block's share.
  After point 199 the block therefore holds the sum of all 200 shares, which is the sum over all 2000000 rows.
-/
import proofs.«134287_j76639396430011_1_alg».proof.Proof.Gen.KernelIdeal.Frame
import proofs.«134287_j76639396430011_1_alg».proof.Proof.CaseValues
import proofs.«134287_j76639396430011_1_alg».proof.Proof.BlockContribution
import proofs.«134287_j76639396430011_1_alg».proof.Proof.Blocks
import proofs.«134287_j76639396430011_1_alg».proof.Proof.Contraction

noncomputable section

open scoped BigOperators

namespace Cert.KernelIdeal.Accumulated

open Idealize.ShloMosaic Idealize.ShloMosaic.TcCoe Idealize.SL.Sem Idealize.ShloMosaic.ValueIdx
open Cert.KernelIdeal Cert.KernelIdeal.Gen
open Cert.KernelIdeal.CaseValue Cert.KernelIdeal.BlockValue Cert.KernelIdeal.BlockRead Cert.Contraction

/-! ## What each point leaves, as the accumulating store's value (any float instance) -/

section AnyInstance

variable {F : FTy → Type} [FloatOps F]
variable (m : (ℓ : Loc nD τ sig) → Buf (Elt F) ℓ)

/-- The first point leaves the accumulating store's value over the zero block. -/
theorem first_value (c : Dev nD) (t : Fin cfg0.N) (h0 : t.val % 200 = 0) :
    outsAt0 m c t.val t.isLt = k0_pay2 (iblk m c 0 t) (iblk m c 1 t) (iblk m c 2 t) (iblk m c 3 t) (k0_pay1 (F := F)) :=
  (outsAt0_A m c t h0).trans
    (first_point c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t) (iblk m c 2 t) (iblk m c 3 t))

/-- A later point leaves the accumulating store's value over what the point before left. -/
theorem later_value (c : Dev nD) (t : Fin cfg0.N) (h0 : ¬t.val % 200 = 0) :
    outsAt0 m c t.val t.isLt = k0_pay2 (iblk m c 0 t) (iblk m c 1 t) (iblk m c 2 t) (iblk m c 3 t)
      (outsAt0 m c (t.val - 1) (Nat.lt_of_le_of_lt (Nat.sub_le _ _) t.isLt)) :=
  (outsAt0_B m c t h0).trans
    (later_point c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)))

end AnyInstance

/-! ## Over the extended reals -/

variable (m : (ℓ : Loc nD τ sig) → Buf (Elt Ideal) ℓ)

/-- Point t's contribution at (i, o) is block t's share of the contraction's entry. -/
theorem point_share (c : Dev nD) (t : Fin cfg0.N) (ht : t.val < 200) (i o : Fin 32) :
    contribution (iblk m c 0 t : Vec Ideal S10000x32 .f32) (iblk m c 1 t : Vec Ideal S10000x32 .f32)
        (iblk m c 2 t : Vec Ideal S32x32 .f32) (iblk m c 3 t : Vec Ideal S1x32 .f32) i o
      = blockShare (m ((c : Thread nD τ).loc main_arg0)) (m ((c : Thread nD τ).loc main_arg1))
          (m ((c : Thread nD τ).loc main_arg2)) (m ((c : Thread nD τ).loc main_arg3)) i o ⟨t.val, ht⟩ := by
  unfold contribution blockShare term
  refine Finset.sum_congr rfl fun y _ => ?_
  exact congrArg₂ (· * ·) (feature_block m c t y i (row_lt ⟨t.val, ht⟩ y))
    (congrArg₂ (· + ·)
      (Finset.sum_congr rfl fun k _ =>
        congrArg₂ (· * ·) (x_block m c t y k (row_lt ⟨t.val, ht⟩ y)) (weights_block m c t o k))
      (bias_block m c t o))

/-- After the first point the block holds, at (i, o), zero plus block 0's share. -/
theorem entry_first (c : Dev nD) (t : Fin cfg0.N) (ht : t.val < 200) (h0 : t.val % 200 = 0) (i o : Fin 32) :
    outsAt0 m c t.val t.isLt (ix2 i o)
      = 0 + blockShare (m ((c : Thread nD τ).loc main_arg0)) (m ((c : Thread nD τ).loc main_arg1))
          (m ((c : Thread nD τ).loc main_arg2)) (m ((c : Thread nD τ).loc main_arg3)) i o ⟨t.val, ht⟩ :=
  (congrFun (first_value m c t h0) (ix2 i o)).trans <|
    (stored_apply (iblk m c 0 t) (iblk m c 1 t) (iblk m c 2 t) (iblk m c 3 t) (k0_pay1 (F := Ideal)) i o).trans <|
      congrArg₂ (· + ·) (reset_apply (ix2 i o)) (point_share m c t ht i o)

/-- After a later point the block holds, at (i, o), what the point before left there plus the point's block's share. -/
theorem entry_later (c : Dev nD) (t : Fin cfg0.N) (ht : t.val < 200) (h0 : ¬t.val % 200 = 0) (i o : Fin 32) :
    outsAt0 m c t.val t.isLt (ix2 i o)
      = outsAt0 m c (t.val - 1) (Nat.lt_of_le_of_lt (Nat.sub_le _ _) t.isLt) (ix2 i o)
        + blockShare (m ((c : Thread nD τ).loc main_arg0)) (m ((c : Thread nD τ).loc main_arg1))
          (m ((c : Thread nD τ).loc main_arg2)) (m ((c : Thread nD τ).loc main_arg3)) i o ⟨t.val, ht⟩ :=
  (congrFun (later_value m c t h0) (ix2 i o)).trans <|
    (stored_apply (iblk m c 0 t) (iblk m c 1 t) (iblk m c 2 t) (iblk m c 3 t)
      (outsAt0 m c (t.val - 1) (Nat.lt_of_le_of_lt (Nat.sub_le _ _) t.isLt)) i o).trans <|
      congrArg (_ + ·) (point_share m c t ht i o)

/-- The grid has 200 points. -/
theorem points : cfg0.N = 200 := N_0

/-- After the last point the block holds the contraction's entry at every (i, o). -/
theorem last_entry (c : Dev nD) (i o : Fin 32) :
    outsAt0 m c 199 (by rw [points]; norm_num) (ix2 i o)
      = total (m ((c : Thread nD τ).loc main_arg0)) (m ((c : Thread nD τ).loc main_arg1))
          (m ((c : Thread nD τ).loc main_arg2)) (m ((c : Thread nD τ).loc main_arg3)) i o :=
  accumulated_eq_total _ _ _ _ i o (fun t => outsAt0 m c t.val (lt_of_lt_of_eq t.isLt points.symm) (ix2 i o))
    (entry_first m c ⟨0, by rw [points]; norm_num⟩ (by norm_num) rfl i o)
    (fun t h => entry_later m c ⟨t + 1, lt_of_lt_of_eq h points.symm⟩ h (by show ¬(t + 1) % 200 = 0; omega) i o)

end Cert.KernelIdeal.Accumulated

end
-- ==== Proof.ReferenceContraction.lean ====
/-
  The reference computes the contraction, then finishes it.

  The reference transposes the weights, multiplies x by them (entry (n, o) is ∑ k, x[n, k] · Wᵀ[k, o] = ∑ k, x[n, k] · W[o, k]),
  adds the bias spread over the rows, and contracts the 2000000 rows away against feature: entry (i, o) of that is
  ∑ n, feature[n, i] · ((∑ k, x[n, k] · W[o, k]) + b[o]), the contraction's entry.  Everything after that — the column
  softmax of w, the entrywise product with it, the column sums and the division by the row count — is one function
  `finish` of the contraction and of w; it is never opened.
-/
import proofs.«134287_j76639396430011_1_alg».proof.Proof.Gen.ReferenceIdeal.Read
import proofs.«134287_j76639396430011_1_alg».proof.Proof.Contraction

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Contraction

/-- What both programs do with the contraction t and the argument w: multiply t entrywise by the column softmax of w,
    sum each column, and divide by the row count. -/
def finish (t w : FVec Ideal S32x32 .f32) : FVec Ideal S1x32 .f32 :=
  Host.divf (F := Ideal) (φ := .f32)
    (broadcastInDim S1x32 ![1] bcast_S32_S1x32_1
      (Host.reduceAdd (F := Ideal) (φ := .f32) (mulf (F := Ideal) (φ := .f32) t (val_main_v15 (F := Ideal) w))
        (val_main_cst_2 (F := Ideal)) reducesTo_S32x32_S32_d0 h_S_))
    (val_main_v20 (F := Ideal))

/-- The reference's result is `finish` of its contraction stage and w. -/
theorem result_eq_finish (x0 x1 : (⟨S2000000x32, .f32⟩ : BufTy).Contents (Elt Ideal)) (x2 : (⟨S32x32, .f32⟩ : BufTy).Contents (Elt Ideal))
    (x3 : (⟨S32, .f32⟩ : BufTy).Contents (Elt Ideal)) (x4 : (⟨S32x32, .f32⟩ : BufTy).Contents (Elt Ideal)) :
    val_main_v21 (F := Ideal) x0 x1 x2 x3 x4 = finish (val_main_v16 (F := Ideal) x0 x1 x2 x3) x4 := rfl

/-- The reference's contraction stage is the contraction. -/
theorem contraction_stage (x0 x1 : (⟨S2000000x32, .f32⟩ : BufTy).Contents (Elt Ideal)) (x2 : (⟨S32x32, .f32⟩ : BufTy).Contents (Elt Ideal))
    (x3 : (⟨S32, .f32⟩ : BufTy).Contents (Elt Ideal)) :
    val_main_v16 (F := Ideal) x0 x1 x2 x3 = totalArray x0 x1 x2 x3 := by
  funext j
  obtain ⟨i, o, rfl⟩ : ∃ (i o : Fin 32), j = ix2 i o := ⟨j 0, j 1, eq_ix2 j⟩
  rw [totalArray_apply, val_main_v16_apply]
  unfold total
  refine Finset.sum_congr rfl fun n _ => ?_
  unfold term
  have e1 : lidx_main_v16 (ix2 i o) n = ix2 n i :=
    funext fun a => Fin.ext (by match a with | ⟨0, _⟩ => rfl | ⟨1, _⟩ => rfl)
  have e2 : ridx_main_v16 (ix2 i o) n = ix2 n o :=
    funext fun a => Fin.ext (by match a with | ⟨0, _⟩ => rfl | ⟨1, _⟩ => rfl)
  rw [e1, e2, val_main_v4_apply, val_main_v1_apply, val_main_v3_apply, val_main_v2_apply]
  refine congrArg (x1 (ix2 n i) * ·) ?_
  show _ + _ = _ + _
  refine congrArg₂ (· + ·) (Finset.sum_congr rfl fun k _ => ?_) ?_
  · rw [val_main_v0_apply]
    refine congrArg₂ (· * ·) (congrArg x0 ?_) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x3 (funext fun a => Fin.ext (by match a with | ⟨0, _⟩ => rfl))

end Cert.ReferenceIdeal.RefValue

end
-- ==== Proof.KernelResult.lean ====
/-
  The kernel program's result.

  The output block is written back to its array once, after the last grid point, and the block is the whole 32 × 32
  array; so the array ends holding what the block held then, the contraction.  The operations after the kernel read that
  array and the argument w — which nothing has written — and apply to them exactly the reference's closing operations:
  the result is `finish` of the contraction and w.
-/
import proofs.«134287_j76639396430011_1_alg».proof.Proof.Gen.KernelIdeal.Frame
import proofs.«134287_j76639396430011_1_alg».proof.Proof.Accumulated
import proofs.«134287_j76639396430011_1_alg».proof.Proof.ReferenceContraction
import Idealize.ShloMosaic.Lib.Pipeline.Value
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accumulated Cert.Contraction

variable (m : (ℓ : Loc nD τ sig) → Buf (Elt Ideal) ℓ) (ρ : Dev nD → PrngReg)

/-- The contraction of the argument arrays, as contents of the kernel's output array. -/
abbrev contractionOf (c : Dev nD) : Buf (Elt Ideal) ((c : Thread nD τ).loc main_v1) :=
  totalArray (m ((c : Thread nD τ).loc main_arg0)) (m ((c : Thread nD τ).loc main_arg1))
    (m ((c : Thread nD τ).loc main_arg2)) (m ((c : Thread nD τ).loc main_arg3))

/-- The last grid point. -/
abbrev lastPoint : Fin cfg0.N := ⟨199, by rw [points]; norm_num⟩

/-- After the last point the output block holds the contraction. -/
theorem last_block (c : Dev nD) : outsAt0 m c (lastPoint).val (lastPoint).isLt = contractionOf m c := by
  funext j
  obtain ⟨i, o, rfl⟩ : ∃ (i o : Fin 32), j = ix2 i o := ⟨j 0, j 1, eq_ix2 j⟩
  exact last_entry m c i o

/-- The output's one block sits at the array's origin, at every grid point. -/
theorem output_index : ∀ t : Fin cfg0.N, win0_4.index t 0 = 0 ∧ win0_4.index t 1 = 0 :=
  (by decide +kernel : ∀ t : Fin grid0.N, win0_4.index t 0 = 0 ∧ win0_4.index t 1 = 0)

/-- The one write-back, at the last point, writes the contraction: the block is the whole array. -/
theorem flushed_eq (c : Dev nD) (t : Fin cfg0.N) (hf : (cfg0.win 4).flush t = true) :
    (dats m 0 c).flushed 4 t = ((cfg0.win 4).blk t).view.read (Elt Ideal) (contractionOf m c) := by
  have hN : cfg0.N = 200 := points
  have h199 : t.val = 199 := by have := (flush0_4 t).mp hf; have := t.isLt; omega
  obtain rfl : t = lastPoint := Fin.ext h199
  show (cfg0.win 4).cut (grid0.coords lastPoint) ((dats m 0 c).after 4 lastPoint) = _
  rw [after0_4, last_block]
  have hz' : (fun a => win0_4.index lastPoint a * main_v1.ty.shape.size a) = fun _ => 0 :=
    funext fun a => by
      match a with
      | ⟨0, _⟩ => show win0_4.index lastPoint 0 * 32 = 0; rw [(output_index lastPoint).1]
      | ⟨1, _⟩ => show win0_4.index lastPoint 1 * 32 = 0; rw [(output_index lastPoint).2]
  exact (Memref.read_access_unit_zero (Elt Ideal) main_v1 hz' (fun a => by rw [congrFun hz' a]; simp) (contractionOf m c)).symm

/-- So the kernel's output array ends holding the contraction. -/
theorem output_array (c : Dev nD) : (dats m 0 c).arrAt 4 cfg0.N = contractionOf m c :=
  (dats m 0 c).arrAt_eq_of_cover 4 (contractionOf m c) (flushed_eq m c) fun i =>
    ⟨lastPoint, (flush0_4 lastPoint).mpr rfl, by
      show i ∈ ((View.whole main_v1).slice (win0_4.rect lastPoint)).set
      rw [View.set_slice_whole, Rect.mem_set_unit]
      intro a
      have h0 : (i 0 : Nat) < 32 := (i 0).isLt
      have h1 : (i 1 : Nat) < 32 := (i 1).isLt
      match a with
      | ⟨0, _⟩ =>
        show win0_4.index lastPoint 0 * win0_4.size 0 ≤ (i 0 : Nat)
          ∧ (i 0 : Nat) < win0_4.index lastPoint 0 * win0_4.size 0 + win0_4.xsize (grid0.coords lastPoint) 0
        rw [(output_index lastPoint).1, show win0_4.xsize (grid0.coords lastPoint) 0 = 32 from by decide +kernel]; omega
      | ⟨1, _⟩ =>
        show win0_4.index lastPoint 1 * win0_4.size 1 ≤ (i 1 : Nat)
          ∧ (i 1 : Nat) < win0_4.index lastPoint 1 * win0_4.size 1 + win0_4.xsize (grid0.coords lastPoint) 1
        rw [(output_index lastPoint).2, show win0_4.xsize (grid0.coords lastPoint) 1 = 32 from by decide +kernel]; omega⟩

/-- The program's result, after the operations that follow the kernel. -/
theorem result (c : Dev nD) :
    Pipeline.afterTail₀ cfgs (dats m) 0 (V0 m) [hostOps1] c main_v17
      = Cert.ReferenceIdeal.RefValue.finish (contractionOf m c) (m ((c : Thread nD τ).loc main_arg4)) := by
  unfold Pipeline.afterTail₀
  show StableHlo.after hostOps1 _ (Proc.devRef .tc main_v17) = _
  after_results
  have e1 : Pipeline.withArrays (cfgs 0).spec c (V0 m c) (fun w => (dats m 0 c).arrAt w (cfgs 0).N) (Proc.devRef .tc main_v1)
      = contractionOf m c :=
    (Pipeline.withArrays_arr spec0 launch0.win.arr_inj c _ _ 4).trans (output_array m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4
      (by exact (by decide : ∀ w, Pipeline.arrRef spec0 w ≠ main_arg4))).trans (V_main_arg4 m c)
  rw [e1, e4]
  rfl

/-- The run, read: the result at `finish` of the contraction and w, every argument array unchanged. -/
theorem run : θ_run defs (onTc (τ := τ) (main (F := Ideal))) ⟨m, fun _ => 0, ρ⟩ fun r => ∀ c : Dev nD,
      r.2.mem ((c.tc : Thread nD τ).loc main_v17)
        = Cert.ReferenceIdeal.RefValue.finish (contractionOf m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  The kernel program and the reference compute the same 1 × 32 result over the extended reals.

  Both take x and feature (2000000 × 32), weights W (32 × 32), a bias b (32) and w (32 × 32), form the contraction
      t[i, o] = ∑ n, feature[n, i] · ((∑ k, x[n, k] · W[o, k]) + b[o])
  and then apply the same closing operations to t and w (the column softmax of w, the entrywise product, the column sums,
  the division by the row count).  The reference forms t with one matrix product over all 2000000 rows.  The kernel walks
  200 blocks of 10000 rows, starting its 32 × 32 output block at zero and adding each block's share; over the extended
  reals addition is commutative and associative, so the block-by-block total is the same sum (Proof/Contraction.lean), with
  no appeal to the finiteness of the inputs.  The closing operations are one function of t and w on both sides and are
  never opened.

  The modules: Contraction (the function t and its block-by-block form), BlockContribution (one grid point's stored value
  entry by entry), CaseValues (what the body's two cases leave in the output block), Blocks (the input blocks in terms of
  the argument arrays), Accumulated (the output block after the last point is t), KernelResult (the kernel program's run,
  read), ReferenceContraction (the reference's product chain is t, the rest is the shared closing function).
-/
import proofs.«134287_j76639396430011_1_alg».proof.Defs
import proofs.«134287_j76639396430011_1_alg».proof.Proof.Gen.Kernel
import proofs.«134287_j76639396430011_1_alg».proof.Proof.Gen.Kernel.Skeleton
import proofs.«134287_j76639396430011_1_alg».proof.Proof.Gen.Kernel.Launch
import proofs.«134287_j76639396430011_1_alg».proof.Proof.Gen.Kernel.Points
import proofs.«134287_j76639396430011_1_alg».proof.Proof.Gen.Kernel.Frame
import proofs.«134287_j76639396430011_1_alg».proof.Proof.Gen.KernelIdeal
import proofs.«134287_j76639396430011_1_alg».proof.Proof.Gen.KernelIdeal.Skeleton
import proofs.«134287_j76639396430011_1_alg».proof.Proof.Gen.KernelIdeal.Launch
import proofs.«134287_j76639396430011_1_alg».proof.Proof.Gen.KernelIdeal.Points
import proofs.«134287_j76639396430011_1_alg».proof.Proof.Gen.KernelIdeal.Frame
import proofs.«134287_j76639396430011_1_alg».proof.Proof.Gen.ReferenceIdeal
import proofs.«134287_j76639396430011_1_alg».proof.Proof.Gen.ReferenceIdeal.Run
import proofs.«134287_j76639396430011_1_alg».proof.Proof.Gen.ReferenceIdeal.Read
import proofs.«134287_j76639396430011_1_alg».proof.Proof.Gen.Pre_finite_inputs
import proofs.«134287_j76639396430011_1_alg».proof.Proof.KernelResult
import proofs.«134287_j76639396430011_1_alg».proof.Proof.ReferenceContraction
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote no operation. -/
theorem preserves : Cert.preserves_Kernel_KernelIdeal := trivial

/-- From memories that agree on the arguments both programs end with the closing function applied to the contraction of
    the arguments and to w: the kernel program by its run read block by block, the reference by its product chain. -/
theorem algebraic : Cert.algebraic_KernelIdeal_ReferenceIdeal := by
  intro m ρ m' ρ' _ hagree
  refine ⟨fun c => Cert.ReferenceIdeal.RefValue.finish (Cert.KernelIdeal.Result.contractionOf m c)
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq_finish,
    Cert.ReferenceIdeal.RefValue.contraction_stage, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
